-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel

variable [Facts]

def fn {F : FTy → Type} [FloatOps F] (main_arg0 : FVec F S1048576x32 .f32) (main_arg1 : FVec F S1048576x32 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  main_v8
-- ==== Kernel.lean ====
abbrev S1048576x32 : Shape := ⟨2, ![1048576, 32]⟩
abbrev S2x8x128 : Shape := ⟨3, ![2, 8, 128]⟩
abbrev S8192x32 : Shape := ⟨2, ![8192, 32]⟩
abbrev S1x8x128 : Shape := ⟨3, ![1, 8, 128]⟩
abbrev S1x1 : Shape := ⟨2, ![1, 1]⟩
abbrev S2048x32 : Shape := ⟨2, ![2048, 32]⟩
abbrev S2048 : Shape := ⟨1, ![2048]⟩
abbrev S2048x1 : Shape := ⟨2, ![2048, 1]⟩
abbrev S1 : Shape := ⟨1, ![1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x32, .f32⟩
  | .local _ .vmem, ⟨1, _⟩ => ⟨S8192x32, .f32⟩
  | .local _ .vmem, ⟨2, _⟩ => ⟨S8192x32, .f32⟩
  | .local _ .vmem, ⟨3, _⟩ => ⟨S8192x32, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c2048_i32 : BitVec 32 := 2048#32
  let v15 : BitVec 32 := Scalar.muli arg6 c2048_i32
  v15
def k0_off1 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c2048_i32 : BitVec 32 := 2048#32
  let v15 : BitVec 32 := Scalar.muli arg6 c2048_i32
  let v16 : BitVec 32 := v15
  let v17 : Index := Scalar.indexCast v16
  let c0_11 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S2048x32 : 0 < S2048x32.numel
  reduces_S2048x32_S2048 : S2048x32.Reduces [1] S2048
  shapeCasts_S2048_S2048x1 : S2048.ShapeCasts S2048x1
  broadcasts_S2048x1_S2048x32 : S2048x1.Broadcasts S2048x32
  reduces_S2048x1_S1 : S2048x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x32.size a ≤ S8192x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .f32 = 32 ∨ (Rect.block (s := S1048576x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S1048576x32.size a
  hwx0_1 : ∀ i : grid0.Coords, EltTy.bits .f32 = 32 ∨ (Rect.block (s := S1048576x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S_ : Shape := ⟨0, ![]⟩
abbrev S1048576 : Shape := ⟨1, ![1048576]⟩
abbrev S1048576x1 : Shape := ⟨2, ![1048576, 1]⟩

abbrev nBuf : Space → Nat
  | .hbm => 25
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S_, .f32⟩
  | .hbm, ⟨3, _⟩ => ⟨S1048576, .f32⟩
  | .hbm, ⟨4, _⟩ => ⟨S_, .f32⟩
  | .hbm, ⟨5, _⟩ => ⟨S1048576, .f32⟩
  | .hbm, ⟨6, _⟩ => ⟨S1048576, .f32⟩
  | .hbm, ⟨7, _⟩ => ⟨S1048576x1, .f32⟩
  | .hbm, ⟨8, _⟩ => ⟨S1048576x32, .f32⟩
  | .hbm, ⟨9, _⟩ => ⟨S1048576x32, .f32⟩
  | .hbm, ⟨10, _⟩ => ⟨S1048576x32, .f32⟩
  | .hbm, ⟨11, _⟩ => ⟨S_, .f32⟩
  | .hbm, ⟨12, _⟩ => ⟨S1048576, .f32⟩
  | .hbm, ⟨13, _⟩ => ⟨S1048576x1, .f32⟩
  | .hbm, ⟨14, _⟩ => ⟨S1048576x1, .f32⟩
  | .hbm, ⟨15, _⟩ => ⟨S1048576x32, .f32⟩
  | .hbm, ⟨16, _⟩ => ⟨S1048576x32, .f32⟩
  | .hbm, ⟨17, _⟩ => ⟨S1048576x32, .f32⟩
  | .hbm, ⟨18, _⟩ => ⟨S_, .f32⟩
  | .hbm, ⟨19, _⟩ => ⟨S1048576, .f32⟩
  | .hbm, ⟨20, _⟩ => ⟨S1048576, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S1048576x32_S1048576_d1 : S1048576x32.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x32_0_1 : S1048576x1.BroadcastsInDim S1048576x32 (![0, 1] : Fin 2 → Fin S1048576x32.rank)
  reducesTo_S1048576_S_d0 : S1048576.ReducesTo [0] S_

variable [Facts₀]

class Facts : Prop extends Facts₀ where

variable [Facts]
-- ==== Proof.RowLoss.lean ====
/-
  The soft cross-entropy of a batch, as one function of the logits and the weights.

  For a row `x` of 32 logits and a row `t` of 32 weights the row's loss is `-(∑ k, t k * logSoftmax x k)`, where
  `logSoftmax x k = (x k - M) - log (∑ k', exp (x k' - M))` and `M` is the row's largest entry. The batch's loss is the
  sum of the 1048576 rows' losses divided by the row count (the float `2^20`, kept as its word: both programs
  divide by the same word, so it is never evaluated).

  Everything is over the extended reals, where `+` is commutative and associative with neutral `0`; nothing else
  is used to regroup the rows' sum, so no finiteness of the entries is needed.
-/
import Idealize.ShloMosaic.PureOps.Ideal
import Idealize.ShloMosaic.PureOps.Ideal.Laws
import Idealize.ShloMosaic.Lib.ValueIdx

noncomputable section

open scoped BigOperators

namespace Cert.RowLoss

open Idealize.ShloMosaic Idealize.ShloMosaic.ValueIdx

/-- The largest of a row's 32 entries (`-∞` is the maximum's neutral element). -/
def rowMax (x : Fin 32 → EReal) : EReal := Finset.univ.fold max ⊥ x

/-- One entry of a row's log-softmax: the entry less the row's maximum, less the logarithm of the sum of the
    exponentials of the entries so shifted. -/
def logSoftmax (x : Fin 32 → EReal) (k : Fin 32) : EReal :=
  (x k - rowMax x) - Ideal.log (∑ k' : Fin 32, Ideal.exp (x k' - rowMax x))

/-- A row's loss: minus the weighted sum of its log-softmax. -/
def rowLoss (x t : Fin 32 → EReal) : EReal := -(∑ k : Fin 32, t k * logSoftmax x k)

/-- Row `r` of an array of 32-entry rows. -/
def row {n : Nat} (a : (⟨2, ![n, 32]⟩ : Shape).Idx → EReal) (r : Fin n) : Fin 32 → EReal := fun k => a (ix2 r k)

/-- The loss of row number `r` of an array of rows, `0` past the last row: the rows' losses as a sequence, so that
    sums of them over ranges can be split and regrouped by arithmetic on the row number. -/
def lossAt {n : ℕ} (x t : (⟨2, ![n, 32]⟩ : Shape).Idx → EReal) (r : ℕ) : EReal :=
  if h : r < n then rowLoss (row x ⟨r, h⟩) (row t ⟨r, h⟩) else 0

/-- The batch's loss: the rows' losses summed and divided by the row count. -/
def meanLoss (x t : (⟨2, ![1048576, 32]⟩ : Shape).Idx → EReal) : EReal :=
  Ideal.div (∑ r : Fin 1048576, rowLoss (row x r) (row t r)) (Ideal.ofBits .f32 0x49800000#32)

theorem lossAt_of_lt {n : ℕ} (x t : (⟨2, ![n, 32]⟩ : Shape).Idx → EReal) (r : ℕ) (h : r < n) :
    lossAt x t r = rowLoss (row x ⟨r, h⟩) (row t ⟨r, h⟩) := dif_pos h

/-- A sum over `a * b` consecutive numbers is the sum over `a` consecutive runs of `b`. -/
theorem sum_range_mul {M : Type*} [AddCommMonoid M] (f : ℕ → M) (a b : ℕ) :
    ∑ r ∈ Finset.range (a * b), f r = ∑ p ∈ Finset.range a, ∑ q ∈ Finset.range b, f (p * b + q) := by
  induction a with
  | zero => simp
  | succ a ih => rw [Nat.succ_mul, Finset.sum_range_add, ih, Finset.sum_range_succ]

/-- The rows' sum over a whole array as the sum of the sequence `lossAt` over the first `n` numbers. -/
theorem sum_rows_eq_range {n : ℕ} (x t : (⟨2, ![n, 32]⟩ : Shape).Idx → EReal) :
    ∑ r : Fin n, rowLoss (row x r) (row t r) = ∑ r ∈ Finset.range n, lossAt x t r := by
  rw [← Fin.sum_univ_eq_sum_range (fun r => lossAt x t r) n]
  exact Finset.sum_congr rfl fun r _ => (lossAt_of_lt x t r.val r.isLt).symm

/-- The batch's rows grouped by the block that holds them: 2 cores, 64 grid points per core, 8192 rows per point's
    block; row `(c * 64 + i) * 8192 + r` is row `r` of the block of point `i` of core `c`. -/
theorem sum_rows_points (x t : (⟨2, ![1048576, 32]⟩ : Shape).Idx → EReal) :
    ∑ r : Fin 1048576, rowLoss (row x r) (row t r)
      = ∑ c ∈ Finset.range 2, ∑ i ∈ Finset.range 64, ∑ r ∈ Finset.range 8192, lossAt x t ((c * 64 + i) * 8192 + r) := by
  rw [sum_rows_eq_range]
  refine (sum_range_mul (lossAt x t) 2 524288).trans (Finset.sum_congr rfl fun c _ => ?_)
  refine (sum_range_mul (fun q => lossAt x t (c * 524288 + q)) 64 8192).trans
    (Finset.sum_congr rfl fun i _ => Finset.sum_congr rfl fun r _ => congrArg (lossAt x t) ?_)
  ring

/-- A block's 8192 rows are its 4 slices of 2048 rows. -/
theorem sum_block_slices (x t : (⟨2, ![8192, 32]⟩ : Shape).Idx → EReal) :
    ∑ j ∈ Finset.range 4, ∑ q ∈ Finset.range 2048, lossAt x t (j * 2048 + q) = ∑ r ∈ Finset.range 8192, lossAt x t r :=
  (sum_range_mul (lossAt x t) 4 2048).symm

end Cert.RowLoss

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.SliceLoss.lean ====
/-
  One slice of 2048 rows.  The kernel body's arithmetic on a slice `x` of the logits and the matching slice `t` of the
  weights, read at its one result entry, adds to the carried value the sum of the slice's 2048 row losses:

    per row `q`:  `M = max_k x[q,k]` (from `-∞`),  `s[q,k] = x[q,k] - M`,  `lp[q,k] = s[q,k] - log (∑_k' exp s[q,k'])`,
                  `loss[q] = 0 - ∑_k t[q,k] * lp[q,k]`,
    the slice:    `acc + ∑_q loss[q]`.

  On the extended reals `0 - a = -a`, so `loss[q]` is the row loss of the specification.
-/
import proofs.«109926_j65403761983716_2_alg».proof.Proof.Gen.KernelIdeal.Skeleton
import proofs.«109926_j65403761983716_2_alg».proof.Proof.RowLoss
import proofs.«109926_j65403761983716_2_alg».proof.Proof.LibBroadcast
import Idealize.ShloMosaic.PureOps.Ideal.Laws
import Idealize.ShloMosaic.Lib.ValueIdx
import Idealize.ShloMosaic.Lib.Pipeline.Value

noncomputable section

open scoped BigOperators

namespace Cert.KernelIdeal.SliceLoss

open Cert.KernelIdeal Cert.KernelIdeal.Gen Idealize.ShloMosaic Idealize.ShloMosaic.ValueIdx Cert.RowLoss Cert.Layout

/-- The word `0xFF800000` is `-∞`. -/
theorem ofBits_neg_inf : Ideal.ofBits .f32 0xFF800000#32 = ⊥ := by simp [Ideal.ofBits, Ideal.ieee]

/-- Reducing a `[2048, 32]` array along its rows: the entries that reduce to row `q` are `(q, k)`. -/
theorem lift_row (q : Fin 2048) (k : Fin 32) : reduces_S2048x32_S2048.lift (ix1 q) k = ix2 q k :=
  funext fun a => Fin.ext (by match a with | ⟨0, _⟩ => rfl | ⟨1, _⟩ => rfl)

/-- Reducing a `[2048, 1]` column to one entry: the entries are `(q, 0)`. -/
theorem lift_col (q : Fin 2048) : reduces_S2048x1_S1.lift (ix1 (0 : Fin 1)) q = ix2 q (0 : Fin 1) :=
  funext fun a => Fin.ext (by match a with | ⟨0, _⟩ => rfl | ⟨1, _⟩ => rfl)

/-- A row's maximum from `-∞`. -/
theorem rowMax_eq (v : FVec Ideal S2048x32 .f32) (q : Fin 2048) :
    multiReduction .maximumf [1] S2048 v 0xFF800000#32 reduces_S2048x32_S2048 (.inl rfl) rfl (ix1 q) = rowMax (row v q) := by
  refine (Ideal.multiReduction_maximumf_single v 0xFF800000#32 reduces_S2048x32_S2048 (.inl rfl) rfl (ix1 q)).trans ?_
  show Finset.fold max (Ideal.ofBits .f32 0xFF800000#32) (v ∘ reduces_S2048x32_S2048.lift (ix1 q)) Finset.univ = _
  rw [ofBits_neg_inf]
  exact congrArg (fun f => Finset.fold max ⊥ f Finset.univ) (funext fun k => congrArg v (lift_row q k))

/-- A row's sum. -/
theorem rowSum_eq (v : FVec Ideal S2048x32 .f32) (q : Fin 2048) :
    multiReduction .add [1] S2048 v 0x00000000#32 reduces_S2048x32_S2048 (.inl rfl) rfl (ix1 q) = ∑ k : Fin 32, v (ix2 q k) := by
  refine (Ideal.multiReduction_add_single v 0x00000000#32 reduces_S2048x32_S2048 (.inl rfl) rfl (ix1 q)).trans ?_
  exact Finset.sum_congr rfl fun k _ => congrArg v (lift_row q k)

/-- A column's sum. -/
theorem colSum_eq (v : FVec Ideal S2048x1 .f32) :
    multiReduction .add [0] S1 v 0x00000000#32 reduces_S2048x1_S1 (.inl rfl) rfl (ix1 (0 : Fin 1)) = ∑ q : Fin 2048, v (ix2 q (0 : Fin 1)) := by
  refine (Ideal.multiReduction_add_single v 0x00000000#32 reduces_S2048x1_S1 (.inl rfl) rfl (ix1 (0 : Fin 1))).trans ?_
  exact Finset.sum_congr rfl fun q _ => congrArg v (lift_col q)

/-- The logits less their row's maximum, as the body computes them. -/
def shiftedV (x : FVec Ideal S2048x32 .f32) : FVec Ideal S2048x32 .f32 :=
  subf x (broadcastTo S2048x32 (shapeCast S2048x1 (multiReduction .maximumf [1] S2048 x 0xFF800000#32 reduces_S2048x32_S2048 (.inl rfl) rfl) shapeCasts_S2048_S2048x1) broadcasts_S2048x1_S2048x32)

/-- The log-softmax, as the body computes it. -/
def logpV (x : FVec Ideal S2048x32 .f32) : FVec Ideal S2048x32 .f32 :=
  subf (shiftedV x) (broadcastTo S2048x32 (log (shapeCast S2048x1 (multiReduction .add [1] S2048 (exp (shiftedV x)) 0x00000000#32 reduces_S2048x32_S2048 (.inl rfl) rfl) shapeCasts_S2048_S2048x1)) broadcasts_S2048x1_S2048x32)

/-- The rows' losses, as the body computes them: zero less the weighted row sums. -/
def lossV (x t : FVec Ideal S2048x32 .f32) : FVec Ideal S2048x1 .f32 :=
  subf (broadcast S2048x1 (Scalar.ofBits .f32 0x00000000#32)) (shapeCast S2048x1 (multiReduction .add [1] S2048 (mulf t (logpV x)) 0x00000000#32 reduces_S2048x32_S2048 (.inl rfl) rfl) shapeCasts_S2048_S2048x1)

/-- The body's slice payload is the carried value plus the column sum of the rows' losses. -/
theorem pay3_eq (acc : FVec Ideal S1x1 .f32) (x t : Vec Ideal S2048x32 .f32) :
    k0_pay3 (F := Ideal) acc x t
      = addf acc (shapeCast S1x1 (multiReduction .add [0] S1 (lossV x t) 0x00000000#32 reduces_S2048x1_S1 (.inl rfl) rfl) shapeCasts_S1_S1x1) := rfl

theorem shiftedV_apply (x : FVec Ideal S2048x32 .f32) (q : Fin 2048) (k : Fin 32) :
    shiftedV x (ix2 q k) = x (ix2 q k) - rowMax (row x q) := by
  show x (ix2 q k) - broadcastTo S2048x32 _ broadcasts_S2048x1_S2048x32 (ix2 q k) = _
  rw [broadcastTo_a1_ab_apply, shapeCast_col_apply, rowMax_eq]

theorem logpV_apply (x : FVec Ideal S2048x32 .f32) (q : Fin 2048) (k : Fin 32) :
    logpV x (ix2 q k) = logSoftmax (row x q) k := by
  show shiftedV x (ix2 q k) - broadcastTo S2048x32 _ broadcasts_S2048x1_S2048x32 (ix2 q k) = _
  rw [broadcastTo_a1_ab_apply]
  show shiftedV x (ix2 q k) - Ideal.log (shapeCast S2048x1 _ shapeCasts_S2048_S2048x1 (ix2 q (0 : Fin 1))) = _
  rw [shapeCast_col_apply, rowSum_eq, shiftedV_apply]
  unfold logSoftmax
  refine congrArg (fun s => (x (ix2 q k) - rowMax (row x q)) - Ideal.log s) (Finset.sum_congr rfl fun k' _ => ?_)
  show Ideal.exp (shiftedV x (ix2 q k')) = _
  rw [shiftedV_apply]; rfl

theorem lossV_apply (x t : FVec Ideal S2048x32 .f32) (q : Fin 2048) :
    lossV x t (ix2 q (0 : Fin 1)) = rowLoss (row x q) (row t q) := by
  show Ideal.ofBits .f32 0x00000000#32 - shapeCast S2048x1 _ shapeCasts_S2048_S2048x1 (ix2 q (0 : Fin 1)) = _
  rw [shapeCast_col_apply, rowSum_eq, Ideal.ofBits_zero_f32, zero_sub]
  unfold rowLoss
  refine congrArg Neg.neg (Finset.sum_congr rfl fun k _ => ?_)
  show t (ix2 q k) * logpV x (ix2 q k) = _
  rw [logpV_apply]; rfl

/-- THE SLICE: the body's payload at its one entry is the carried value plus the slice's row losses. -/
theorem pay3_apply (acc : FVec Ideal S1x1 .f32) (x t : Vec Ideal S2048x32 .f32) :
    k0_pay3 (F := Ideal) acc x t (ix2 (0 : Fin 1) (0 : Fin 1))
      = acc (ix2 (0 : Fin 1) (0 : Fin 1)) + ∑ q : Fin 2048, rowLoss (row x q) (row t q) := by
  rw [pay3_eq]
  show acc (ix2 (0 : Fin 1) (0 : Fin 1)) + shapeCast S1x1 _ shapeCasts_S1_S1x1 (ix2 (0 : Fin 1) (0 : Fin 1)) = _
  rw [shapeCast_row_apply, colSum_eq]
  exact congrArg (acc (ix2 (0 : Fin 1) (0 : Fin 1)) + ·) (Finset.sum_congr rfl fun q _ => lossV_apply x t q)

end Cert.KernelIdeal.SliceLoss

end
-- ==== Proof.PointLoss.lean ====
/-
  One grid point.  The body walks its block of 8192 rows in 4 slices of 2048 rows, carrying a running value from
  zero; after trip `n` the carried value is the sum of the losses of the block's first `2048 n` rows, so the loop ends
  at the sum of the block's 8192 row losses.  The body then adds that to the scratch entry — which the first point of
  a core's run zeroes and every later point finds as the point before left it — and copies the scratch entry to
  every entry of the output block.
-/
import proofs.«109926_j65403761983716_2_alg».proof.Proof.Gen.KernelIdeal.Frame
import proofs.«109926_j65403761983716_2_alg».proof.Proof.SliceLoss
import Idealize.ShloMosaic.Lib.Pipeline.Value
import Idealize.ShloMosaic.Lib.Tactic

set_option maxRecDepth 16384

noncomputable section

open scoped BigOperators

namespace Cert.KernelIdeal.PointLoss

open Cert.KernelIdeal Cert.KernelIdeal.Gen Idealize.ShloMosaic Idealize.ShloMosaic.TcCoe Idealize.SL.Sem
open Idealize.ShloMosaic.Tactic Idealize.ShloMosaic.ValueIdx Cert.RowLoss Cert.KernelIdeal.SliceLoss

/-- The one entry of a `[1, 1]` array. -/
abbrev o : S1x1.Idx := ix2 (0 : Fin 1) (0 : Fin 1)

theorem idx_eq_o (y : S1x1.Idx) : y = o := by
  rw [eq_ix2 y, Fin.eq_zero (y 0), Fin.eq_zero (y 1)]
  rfl

/-- The loop makes four trips. -/
theorem trips_eq : k0_t1_loop.trips = 4 := by decide

/-- Slice `k` of a block: its rows `2048 k … 2048 k + 2047`, as the body loads them. -/
def slice (x : Vec Ideal S8192x32 .f32) (k : Fin k0_t1_loop.trips) : Vec Ideal S2048x32 .f32 :=
  View.ld x (Rect.unit (s := S8192x32) (k0_off1 k) S2048x32.size (k0_off1_inb k))

theorem slice_lt (k : Fin k0_t1_loop.trips) (q : Fin 2048) : k.val * 2048 + q.val < 8192 := by
  have := k.isLt; have := trips_eq; have := q.isLt; omega

theorem slice_apply (x : Vec Ideal S8192x32 .f32) (k : Fin k0_t1_loop.trips) (q : Fin 2048) (l : Fin 32) :
    slice x k (ix2 q l) = x (ix2 (⟨k.val * 2048 + q.val, slice_lt k q⟩ : Fin 8192) l) := by
  show x ((Rect.unit (s := S8192x32) (k0_off1 k) S2048x32.size (k0_off1_inb k)).idx (ix2 q l)) = _
  refine congrArg x (funext fun a => Fin.ext ?_)
  match a with
  | ⟨0, _⟩ =>
    show k0_off1 k 0 + 1 * q.val = k.val * 2048 + q.val
    rw [k0_off1_eq]; show 2048 * k.val + 1 * q.val = _; omega
  | ⟨1, _⟩ =>
    show k0_off1 k 1 + 1 * l.val = l.val
    rw [k0_off1_eq]; show 0 + 1 * l.val = _; omega

/-- The losses of a slice's rows are the block's losses at the slice's row numbers. -/
theorem slice_sum (x t : Vec Ideal S8192x32 .f32) (k : Fin k0_t1_loop.trips) :
    ∑ q : Fin 2048, rowLoss (row (slice x k) q) (row (slice t k) q)
      = ∑ q ∈ Finset.range 2048, lossAt x t (k.val * 2048 + q) := by
  rw [← Fin.sum_univ_eq_sum_range (fun q => lossAt x t (k.val * 2048 + q)) 2048]
  refine Finset.sum_congr rfl fun q _ => ?_
  rw [lossAt_of_lt x t _ (slice_lt k q)]
  have e1 : row (slice x k) q = row x ⟨k.val * 2048 + q.val, slice_lt k q⟩ := funext fun l => slice_apply x k q l
  have e2 : row (slice t k) q = row t ⟨k.val * 2048 + q.val, slice_lt k q⟩ := funext fun l => slice_apply t k q l
  rw [e1, e2]

section Body

variable (𝒱 : Variants) (c : Dev nD) (bd : Option 𝒱.V) (i : grid0.Coords)
  (a2 : Memref sig .tc .vmem S8192x32 .f32) (h2 : a2.IsWhole) (a3 : Memref sig .tc .vmem S8192x32 .f32) (h3 : a3.IsWhole)
  (a4 : Memref sig .tc .vmem S1x8x128 .f32) (h4 : a4.IsWhole) (a5 : Memref sig .tc .vmem S1x1 .f32) (h5 : a5.IsWhole)

/-- One trip: the slice payload of the carried value and the two slices. -/
theorem tripR_eq (x0 x1 : Vec Ideal S8192x32 .f32) (k : Fin k0_t1_loop.trips) (acc : FVec Ideal S1x1 .f32) :
    tripR_k0_t1 (F := Ideal) 𝒱 c bd i a2 h2 a3 h3 a4 h4 a5 h5 (h2.unread x0) (h3.unread x1) k acc
      = k0_pay3 acc (slice x0 k) (slice x1 k) := by
  unfold tripR_k0_t1 trip_k0_t1
  dsimp only
  simp only [View.readAt_eq_ld, h2.read_unread, h3.read_unread]
  rfl

/-- The carried value before trip `n`: the initial value plus the losses of the block's first `n` slices. -/
theorem st_apply (x0 x1 : Vec Ideal S8192x32 .f32) (init : FVec Ideal S1x1 .f32) : ∀ n : ℕ, n ≤ 4 →
    st_k0_t1 (F := Ideal) 𝒱 c bd i a2 h2 a3 h3 a4 h4 a5 h5 (h2.unread x0) (h3.unread x1) init n o
      = init o + ∑ j ∈ Finset.range n, ∑ q ∈ Finset.range 2048, lossAt x0 x1 (j * 2048 + q)
  | 0, _ => by
    show init o = _
    rw [Finset.sum_range_zero, add_zero]
  | n + 1, hn => by
    have hk : n < k0_t1_loop.trips := by rw [trips_eq]; omega
    have e := st_k0_t1_succ (F := Ideal) 𝒱 c bd i a2 h2 a3 h3 a4 h4 a5 h5 (h2.unread x0) (h3.unread x1) init ⟨n, hk⟩
    rw [show n + 1 = (⟨n, hk⟩ : Fin k0_t1_loop.trips).val + 1 from rfl, e, tripR_eq, pay3_apply]
    show st_k0_t1 (F := Ideal) 𝒱 c bd i a2 h2 a3 h3 a4 h4 a5 h5 (h2.unread x0) (h3.unread x1) init n o + _ = _
    rw [st_apply x0 x1 init n (by omega), slice_sum, add_assoc]
    exact congrArg (init o + ·) (Finset.sum_range_succ (fun j => ∑ q ∈ Finset.range 2048, lossAt x0 x1 (j * 2048 + q)) n).symm

/-- The loop's result from zero: the sum of the block's 8192 row losses. -/
theorem loop_apply (x0 x1 : Vec Ideal S8192x32 .f32) :
    st_k0_t1 (F := Ideal) 𝒱 c bd i a2 h2 a3 h3 a4 h4 a5 h5 (h2.unread x0) (h3.unread x1) (k0_pay2 (F := Ideal))
        (Scf.trips k0_t1_loop.lb k0_t1_loop.ub k0_t1_loop.st) o
      = ∑ r ∈ Finset.range 8192, lossAt x0 x1 r := by
  rw [show Scf.trips k0_t1_loop.lb k0_t1_loop.ub k0_t1_loop.st = 4 from trips_eq, st_apply 𝒱 c bd i a2 h2 a3 h3 a4 h4 a5 h5 x0 x1 _ 4 le_rfl,
    sum_block_slices]
  show Ideal.ofBits .f32 0x00000000#32 + _ = _
  rw [Ideal.ofBits_zero_f32, zero_add]

end Body

/-- The scratch update: the scratch entry plus the loop's result. -/
theorem pay4_apply (v5 : FVec Ideal S1x1 .f32) (v6 : Vec Ideal S1x1 .f32) (y : S1x1.Idx) :
    k0_pay4 (F := Ideal) v5 v6 y = v6 y + v5 y := by
  unfold k0_pay4
  rw [shapeCast_self]
  rfl

/-- The output block: the scratch entry at every entry. -/
theorem pay5_apply (v11 : Vec Ideal S1x1 .f32) (y : S1x8x128.Idx) : k0_pay5 (F := Ideal) v11 y = v11 o := by
  unfold k0_pay5
  show v11 _ = v11 o
  exact congrArg v11 (idx_eq_o _)

/-- The zero the first point of a core's run stores in the scratch. -/
theorem pay1_apply (y : S1x1.Idx) : k0_pay1 (F := Ideal) y = 0 := by
  unfold k0_pay1
  rw [shapeCast_self]
  show Ideal.ofBits .f32 0x00000000#32 = 0
  exact Ideal.ofBits_zero_f32

end Cert.KernelIdeal.PointLoss

end
-- ==== Proof.CoreSum.lean ====
/-
  A core's run of 64 grid points.  At the first point of the run the scratch entry is zeroed and ends at the loss of
  the point's block; at every later point it ends at what the point before left plus the loss of the point's block;
  at every point the output block ends with the scratch entry at every entry.  So after point `n` both hold the sum
  of the block losses of the points of the run up to `n`, and after the run's last point the sum over the core's 64
  blocks.  The block of point `n` is rows `8192 n … 8192 n + 8191` of the batch.
-/
import proofs.«109926_j65403761983716_2_alg».proof.Proof.Gen.KernelIdeal.Frame
import proofs.«109926_j65403761983716_2_alg».proof.Proof.PointLoss
import Idealize.ShloMosaic.Lib.Pipeline.Value
import Idealize.ShloMosaic.Lib.Tactic

set_option maxRecDepth 16384

noncomputable section

open scoped BigOperators

namespace Cert.KernelIdeal.CoreSum

open Cert.KernelIdeal Cert.KernelIdeal.Gen Idealize.ShloMosaic Idealize.ShloMosaic.TcCoe Idealize.SL.Sem
open Idealize.ShloMosaic.Tactic Idealize.ShloMosaic.ValueIdx Cert.RowLoss Cert.KernelIdeal.PointLoss

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords)
  (a2 : Memref sig .tc .vmem S8192x32 .f32) (h2 : a2.IsWhole) (a3 : Memref sig .tc .vmem S8192x32 .f32) (h3 : a3.IsWhole)
  (a4 : Memref sig .tc .vmem S1x8x128 .f32) (h4 : a4.IsWhole) (a5 : Memref sig .tc .vmem S1x1 .f32) (h5 : a5.IsWhole)

/-- A later point of a run: the scratch entry ends at what it held plus the block's loss. -/
theorem sout_B (hc : ¬cond0_0 i) (x0 x1 : Vec Ideal S8192x32 .f32) (xs0 : Vec Ideal S1x1 .f32) :
    sout0_B_0 (F := Ideal) c i a2 h2 a3 h3 a4 h4 a5 h5 hc x0 x1 xs0 o
      = xs0 o + ∑ r ∈ Finset.range 8192, lossAt x0 x1 r := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero (S := S1x1) hz2]
  simp only [View.readAt_eq_ld, h5.read_unread, View.ld_unit_zero (S := S1x1) hz2]
  rw [pay4_apply, loop_apply]

/-- and the output block ends with that at every entry. -/
theorem out_B (hc : ¬cond0_0 i) (x0 x1 : Vec Ideal S8192x32 .f32) (xs0 : Vec Ideal S1x1 .f32) (y : S1x8x128.Idx) :
    out0_B_2 (F := Ideal) c i a2 h2 a3 h3 a4 h4 a5 h5 hc x0 x1 xs0 y
      = xs0 o + ∑ r ∈ Finset.range 8192, lossAt x0 x1 r := by
  unfold out0_B_2
  rw [View.read_writes_eq_canon _ _ _ (cover0_B_2 c i a2 h2 a3 h3 a4 h4 a5 h5 hc x0 x1 xs0)]
  unfold kernelRun0_B
  dsimp only
  sl_unfold_words
  rw [View.canon_unit_zero (S := S1x8x128) hz3, pay5_apply, View.readCov_unit_zero (S := S1x1) _ hz2]
  simp only [View.readAt_eq_ld, h5.read_unread, View.ld_unit_zero (S := S1x1) hz2]
  rw [pay4_apply, loop_apply]

/-- The first point of a run: the scratch entry, zeroed, ends at the block's loss. -/
theorem sout_A (hc : cond0_0 i) (x0 x1 : Vec Ideal S8192x32 .f32) :
    sout0_A_0 (F := Ideal) c i a2 h2 a3 h3 a4 h4 a5 h5 hc x0 x1 o = ∑ r ∈ Finset.range 8192, lossAt x0 x1 r := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S1x1) hz2, pay4_apply, View.readCov_unit_zero (S := S1x1) _ hz2, pay1_apply, zero_add,
    loop_apply]

/-- and the output block ends with that at every entry. -/
theorem out_A (hc : cond0_0 i) (x0 x1 : Vec Ideal S8192x32 .f32) (y : S1x8x128.Idx) :
    out0_A_2 (F := Ideal) c i a2 h2 a3 h3 a4 h4 a5 h5 hc x0 x1 y = ∑ r ∈ Finset.range 8192, lossAt x0 x1 r := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero (S := S1x8x128) hz3, pay5_apply, View.readCov_eq_canon']
  show View.canon _ _ = _
  rw [View.canon_cons_unit_zero (S := S1x1) hz2, pay4_apply, View.readCov_unit_zero (S := S1x1) _ hz2, pay1_apply, zero_add,
    show (Rect.unit (s := S1x1) ![0, 0] S1x1.size inb_S1x1_S1x1_0_0).idx o = o from idx_eq_o _, loop_apply]

end Cases

section Run

variable (m : (ℓ : Loc nD τ sig) → Buf (Elt Ideal) ℓ) (c : Dev nD)

/-- The loss of block `p` of the batch: rows `8192 p … 8192 p + 8191` of the two argument arrays. -/
def blockLoss (p : ℕ) : EReal :=
  ∑ r ∈ Finset.range 8192, lossAt (n := 1048576) (V m c main_arg0) (V m c main_arg1) (p * 8192 + r)

/-- The running sum after point `n`: the block losses of the points of `n`'s run up to `n`. -/
def runLoss (n : ℕ) : EReal := ∑ i' ∈ Finset.range (n % 64 + 1), blockLoss m c (n / 64 * 64 + i')

/-- The index maps over the grid: point `t` reads block `t` of each argument and writes block `t / 64` of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 64 ∧ win0_2.index t (1 : Fin 3) = 0 ∧ win0_2.index t (2 : Fin 3) = 0 :=
  (by decide +kernel : ∀ t : Fin grid0.N, _)

theorem row_lt (t : Fin cfg0.N) (r : Fin 8192) : t.val * 8192 + r.val < 1048576 := by
  have := t.isLt; have : cfg0.N = 128 := N_0; have := r.isLt; omega

/-- Row `r` of the first argument's block at point `t` is row `8192 t + r` of the array. -/
theorem iblk0_apply (t : Fin cfg0.N) (r : Fin 8192) (l : Fin 32) :
    (iblk m c 0 t : Vec Ideal S8192x32 .f32) (ix2 r l) = V m c main_arg0 (ix2 (⟨t.val * 8192 + r.val, row_lt t r⟩ : Fin 1048576) l) := by
  unfold iblk
  rw [View.read_apply]
  show V m c main_arg0 (((cfg0.win 0).blk t).view.emb (ix2 r l)) = _
  refine congrArg (V m c main_arg0) (funext fun a => Fin.ext ?_)
  obtain ⟨e0, e1, -⟩ := idx_facts t
  match a with
  | ⟨0, _⟩ => show win0_0.index t (0 : Fin 2) * 8192 + 1 * r.val = t.val * 8192 + r.val; rw [e0]; omega
  | ⟨1, _⟩ => show win0_0.index t (1 : Fin 2) * 32 + 1 * l.val = l.val; rw [e1]; omega

/-- The same of the second argument. -/
theorem iblk1_apply (t : Fin cfg0.N) (r : Fin 8192) (l : Fin 32) :
    (iblk m c 1 t : Vec Ideal S8192x32 .f32) (ix2 r l) = V m c main_arg1 (ix2 (⟨t.val * 8192 + r.val, row_lt t r⟩ : Fin 1048576) l) := by
  unfold iblk
  rw [View.read_apply]
  show V m c main_arg1 (((cfg0.win 1).blk t).view.emb (ix2 r l)) = _
  refine congrArg (V m c main_arg1) (funext fun a => Fin.ext ?_)
  obtain ⟨-, -, e2, e3, -⟩ := idx_facts t
  match a with
  | ⟨0, _⟩ => show win0_1.index t (0 : Fin 2) * 8192 + 1 * r.val = t.val * 8192 + r.val; rw [e2]; omega
  | ⟨1, _⟩ => show win0_1.index t (1 : Fin 2) * 32 + 1 * l.val = l.val; rw [e3]; omega

/-- So the loss of the blocks at point `t` is the loss of block `t` of the batch. -/
theorem blockLoss_iblk (t : Fin cfg0.N) :
    ∑ r ∈ Finset.range 8192, lossAt (n := 8192) (iblk m c 0 t : Vec Ideal S8192x32 .f32) (iblk m c 1 t : Vec Ideal S8192x32 .f32) r
      = blockLoss m c t.val := by
  refine Finset.sum_congr rfl fun r hr => ?_
  have hr' : r < 8192 := Finset.mem_range.mp hr
  rw [lossAt_of_lt _ _ r hr', lossAt_of_lt _ _ (t.val * 8192 + r) (row_lt t ⟨r, hr'⟩)]
  have e1 : row (n := 8192) (iblk m c 0 t : Vec Ideal S8192x32 .f32) ⟨r, hr'⟩
      = row (n := 1048576) (V m c main_arg0) ⟨t.val * 8192 + r, row_lt t ⟨r, hr'⟩⟩ := funext fun l => iblk0_apply m c t ⟨r, hr'⟩ l
  have e2 : row (n := 8192) (iblk m c 1 t : Vec Ideal S8192x32 .f32) ⟨r, hr'⟩
      = row (n := 1048576) (V m c main_arg1) ⟨t.val * 8192 + r, row_lt t ⟨r, hr'⟩⟩ := funext fun l => iblk1_apply m c t ⟨r, hr'⟩ l
  rw [e1, e2]

theorem runLoss_first (n : ℕ) (h0 : n % 64 = 0) : runLoss m c n = blockLoss m c n := by
  unfold runLoss
  rw [h0, Finset.sum_range_one, show n / 64 * 64 + 0 = n by omega]

theorem runLoss_next (n : ℕ) (h0 : ¬n % 64 = 0) : runLoss m c n = runLoss m c (n - 1) + blockLoss m c n := by
  unfold runLoss
  rw [Finset.sum_range_succ (fun i' => blockLoss m c (n / 64 * 64 + i')) (n % 64), show (n - 1) % 64 + 1 = n % 64 by omega,
    show (n - 1) / 64 = n / 64 by omega, show n / 64 * 64 + n % 64 = n by omega]

/-- After point `n` the scratch entry, and every entry of the output block, hold the running sum. -/
theorem outsAt_eq (n : ℕ) : ∀ h : n < cfg0.N,
    (outsAt0 (F := Ideal) m c n h).2 o = runLoss m c n ∧ ∀ y, (outsAt0 (F := Ideal) m c n h).1 y = runLoss m c n := by
  induction n using Nat.strong_induction_on with
  | _ n ih =>
    intro h
    have hN : cfg0.N = 128 := N_0
    by_cases h0 : n % 64 = 0
    · rw [outsAt0_A m c ⟨n, h⟩ h0]
      dsimp only
      refine ⟨?_, fun y => ?_⟩
      · rw [sout_A, blockLoss_iblk, runLoss_first m c n h0]
      · rw [out_A, blockLoss_iblk, runLoss_first m c n h0]
    · rw [outsAt0_B m c ⟨n, h⟩ h0]
      dsimp only
      have hp : n - 1 < n := by omega
      have ihp := (ih (n - 1) hp (by omega)).1
      refine ⟨?_, fun y => ?_⟩
      · rw [sout_B, blockLoss_iblk, runLoss_next m c n h0]
        exact congrArg (· + blockLoss m c n) ihp
      · rw [out_B, blockLoss_iblk, runLoss_next m c n h0]
        exact congrArg (· + blockLoss m c n) ihp

end Run

end Cert.KernelIdeal.CoreSum

end
-- ==== Proof.KernelValue.lean ====
/-
  The kernel's result.  The output array has one `[1, 8, 128]` block per core; the block of core `p` is written back
  once, after the last point of the core's run, when every entry of it holds the sum of the core's 64 block losses.
  The lines after the call take entry `(p, 0, 0)` of each core's block, add the two from zero and divide by the row
  count: the sum of the 128 block losses, that is of all the batch's row losses, divided by the row count.
-/
import proofs.«109926_j65403761983716_2_alg».proof.Proof.Gen.KernelIdeal.Frame
import proofs.«109926_j65403761983716_2_alg».proof.Proof.CoreSum
import Idealize.ShloMosaic.Lib.Pipeline.Value
import Idealize.ShloMosaic.Lib.StableHlo.Run
import Idealize.ShloMosaic.PureOps.Ideal.Laws
import Idealize.ShloMosaic.Lib.Tactic

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.Tactic Idealize.ShloMosaic.ValueIdx Cert.RowLoss Cert.KernelIdeal.PointLoss Cert.KernelIdeal.CoreSum

variable (m : (ℓ : Loc nD τ sig) → Buf (Elt Ideal) ℓ) (ρ : Dev nD → PrngReg)

/-- The loss of core `p`: the sum of the losses of its 64 blocks. -/
def coreLoss (c : Dev nD) (p : ℕ) : EReal := ∑ i ∈ Finset.range 64, blockLoss m c (p * 64 + i)

/-- The output array after the run: every entry of core `p`'s block is core `p`'s loss. -/
def outFn (c : Dev nD) : S2x8x128.Idx → EReal := fun y => coreLoss m c (y 0).val

abbrev outArr (c : Dev nD) : Buf (Elt Ideal) ((c : Thread nD τ).loc main_v0) := outFn m c

/-- After the last point of a run the running sum is the core's loss. -/
theorem runLoss_last (c : Dev nD) (n : ℕ) (h : n % 64 = 63) : runLoss m c n = coreLoss m c (n / 64) := by
  unfold runLoss coreLoss
  rw [h]

/-- What a write-back writes: the block of the output array it covers. -/
theorem flushed_eq (c : Dev nD) (t : Fin cfg0.N) (hf : (cfg0.win 2).flush t = true) :
    (dats m 0 c).flushed 2 t = ((cfg0.win 2).blk t).view.read (Elt Ideal) (outArr m c) := by
  have h63 : t.val % 64 = 63 := (flush0_2 t).mp hf
  show (cfg0.win 2).cut (grid0.coords t) ((dats m 0 c).after 2 t) = _
  rw [after0_2]
  funext j
  show (outsAt0 (F := Ideal) m c t.val t.isLt).1 j = outFn m c (((cfg0.win 2).blk t).view.emb j)
  rw [(outsAt_eq m c t.val t.isLt).2 j, runLoss_last m c t.val h63]
  unfold outFn
  obtain ⟨-, -, -, -, e4, -⟩ := idx_facts t
  have hj0 : ((((cfg0.win 2).blk t).view.emb j) 0).val = t.val / 64 := by
    show win0_2.index t (0 : Fin 3) * 1 + 1 * (j 0).val = _
    have : (j 0).val < 1 := (j 0).isLt
    rw [e4]; omega
  rw [hj0]

/-- An entry of the output array is in point `t`'s block iff each coordinate is in the block's range. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every entry of the output array is in the block written back after the last point of its core's run. -/
theorem cover (i : S2x8x128.Idx) : ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 128 := N_0
  have ht : (i 0).val * 64 + 63 < cfg0.N := by omega
  refine ⟨⟨(i 0).val * 64 + 63, ht⟩, (flush0_2 _).mpr (by show ((i 0).val * 64 + 63) % 64 = 63; omega), ?_⟩
  rw [mem_blk]
  obtain ⟨-, -, -, -, e4, e5, e6⟩ := idx_facts ⟨(i 0).val * 64 + 63, ht⟩
  have e4' : win0_2.index ⟨(i 0).val * 64 + 63, ht⟩ (0 : Fin 3) = (i 0).val := by rw [e4]; show ((i 0).val * 64 + 63) / 64 = _; omega
  intro a
  match a with
  | ⟨0, _⟩ => show win0_2.index _ (0 : Fin 3) * 1 ≤ (i 0).val ∧ (i 0).val < win0_2.index _ (0 : Fin 3) * 1 + 1; rw [e4']; omega
  | ⟨1, _⟩ => show win0_2.index _ (1 : Fin 3) * 8 ≤ (i 1).val ∧ (i 1).val < win0_2.index _ (1 : Fin 3) * 8 + 8; rw [e5]; omega
  | ⟨2, _⟩ => show win0_2.index _ (2 : Fin 3) * 128 ≤ (i 2).val ∧ (i 2).val < win0_2.index _ (2 : Fin 3) * 128 + 128; rw [e6]; omega

/-- So the output array ends at the cores' losses. -/
theorem final (c : Dev nD) : (dats m 0 c).arrAt 2 cfg0.N = outArr m c :=
  (dats m 0 c).arrAt_eq_of_cover 2 (outArr m c) (flushed_eq m c) cover

/-- A two-entry vector summed from zero by the host. -/
theorem hostSum2 (y0 : S2.Idx → EReal) (x : S_.Idx) :
    Host.reduceAdd (F := Ideal) y0 (constant S_ .f32 0x00000000#32) reducesTo_S2_S_d0 h_S_ x
      = y0 (ix1 (0 : Fin 2)) + y0 (ix1 (1 : Fin 2)) := by
  simp only [Host.reduceAdd, Ideal.hostReduceAdd_def]
  rw [Ideal.hostReduceAdd_total reducesTo_S2_S_d0 (fun b => b.elim0) y0 _ x]
  show Ideal.ofBits .f32 0x00000000#32 + _ = _
  rw [Ideal.ofBits_zero_f32, zero_add]
  let e : Fin 2 ≃ S2.Idx := ⟨fun a => ix1 a, fun j => j 0, fun _ => rfl, fun j => (eq_ix1 j).symm⟩
  rw [← Fintype.sum_equiv e (fun a => y0 (ix1 a)) y0 (fun _ => rfl), Fin.sum_univ_two]

/-- Entry `(a, 0, 0)` of the output array, picked by the slice and the re-layout as entry `a` of a vector: core `a`'s loss. -/
theorem picked_apply (c : Dev nD) (a : Fin 2) :
    shapeCast S2 (extractStridedSlice S2x1x1 ![0, 0, 0] (outFn m c) slices_S2x8x128_S2x1x1_0_0_0) shapeCasts_S2x1x1_S2 (ix1 a)
      = coreLoss m c a.val := by
  rw [shapeCast_apply _ shapeCasts_S2x1x1_S2 (ix1 a) (ix3 a (0 : Fin 1) (0 : Fin 1)) (by
    rw [Shape.rowMajor_val_three, Shape.rowMajor_val_one]; show (a.val * 1 + 0) * 1 + 0 = a.val; omega)]
  rw [extractStridedSlice_apply ![0, 0, 0] (outFn m c) slices_S2x8x128_S2x1x1_0_0_0 (ix3 a (0 : Fin 1) (0 : Fin 1))
    (ix3 a (0 : Fin 8) (0 : Fin 128)) (fun b => by
      match b with
      | ⟨0, _⟩ => show a.val = 0 + a.val; omega
      | ⟨1, _⟩ => rfl
      | ⟨2, _⟩ => rfl)]
  rfl

/-- The lines after the call, on the output array: entry `(p, 0, 0)` of each core's block, the two added from zero,
    the sum divided by the row count. -/
theorem tail_eq (c : Dev nD) :
    Pipeline.afterTail₀ cfgs (dats m) 0 (V0 m) [hostOps1] c main_v4
      = fun _ => Ideal.div (coreLoss m c 0 + coreLoss m c 1) (Ideal.ofBits .f32 0x49800000#32) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.tc.devRef main_v0)
      = outArr m c := (Pipeline.withArrays_arr spec0 launch0.win.arr_inj c _ _ 2).trans (final m c)
  rw [hA]
  funext x
  show Ideal.div (Host.reduceAdd (F := Ideal)
      (fun i => shapeCast S2 (extractStridedSlice S2x1x1 ![0, 0, 0] (outFn m c) slices_S2x8x128_S2x1x1_0_0_0) shapeCasts_S2x1x1_S2 i)
      (constant S_ .f32 0x00000000#32) reducesTo_S2_S_d0 h_S_ x) (Ideal.ofBits .f32 0x49800000#32) = _
  rw [hostSum2, picked_apply, picked_apply]
  rfl

/-- The two cores' losses are all the batch's row losses. -/
theorem mean_eq (c : Dev nD) :
    Ideal.div (coreLoss m c 0 + coreLoss m c 1) (Ideal.ofBits .f32 0x49800000#32)
      = meanLoss (m ((c.tc : Thread nD τ).loc main_arg0)) (m ((c.tc : Thread nD τ).loc main_arg1)) := by
  unfold meanLoss
  refine congrArg (fun s => Ideal.div s (Ideal.ofBits .f32 0x49800000#32)) ?_
  rw [sum_rows_points, Finset.sum_range_succ, Finset.sum_range_one]
  rfl

/-- The result buffer is none of the call's arrays. -/
theorem v4_mem : main_v4 ∈ Pipeline.restRefs sig (cfgs 0).spec :=
  Pipeline.mem_restRefs_of main_v4 rfl (by decide)

/-- THE KERNEL'S RUN: every execution ends with the result at the batch's mean loss and the arguments unchanged. -/
theorem run : θ_run defs (onTc (τ := τ) (main (F := Ideal))) ⟨m, fun _ => 0, ρ⟩ fun r => ∀ c : Dev nD,
      r.2.mem ((c.tc : Thread nD τ).loc main_v4)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 v4_mem).trans ((tail_eq m c).trans (funext fun _ => mean_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference's result.  Read one operation at a time, the reference computes, for row `r` of the logits `x0` and
  of the weights `x1`: the row's maximum from `-∞` (and its maximum with `-∞` again, which changes nothing), the
  entries less it, the logarithm of the sum from zero of their exponentials, the log-softmax as the difference, the
  sum from zero of the weights times it, its negation — the row's loss —; then the sum from zero of the rows' losses
  divided by the row count.  That is the specification's `meanLoss`; the only laws used are `max ⊥ a = a` and
  `0 + a = a`.
-/
import proofs.«109926_j65403761983716_2_alg».proof.Proof.RefRun
import proofs.«109926_j65403761983716_2_alg».proof.Proof.RefRead
import proofs.«109926_j65403761983716_2_alg».proof.Proof.RowLoss
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.SL.Sem Idealize.ShloMosaic.ValueIdx Cert.RowLoss

variable (x0 x1 : (⟨S1048576x32, .f32⟩ : BufTy).Contents (Elt Ideal))

/-- The word `0xFF800000` is `-∞`. -/
theorem ofBits_neg_inf : Ideal.ofBits .f32 0xFF800000#32 = ⊥ := by simp [Ideal.ofBits, Ideal.ieee]

theorem hred : S1048576x32.Reduces [1] S1048576 := by decide

/-- Reducing along the rows: the entries that reduce to row `r` are `(r, k)`. -/
theorem lift_row (r : Fin 1048576) (k : Fin 32) : hred.lift (ix1 r) k = ix2 r k :=
  funext fun a => Fin.ext (by match a with | ⟨0, _⟩ => rfl | ⟨1, _⟩ => rfl)

theorem idx_col (r : Fin 1048576) (k : Fin 32) : idx_main_call0_v3 (idx_main_call0_v4 (ix2 r k)) = ix1 r :=
  funext fun a => Fin.ext (by match a with | ⟨0, _⟩ => rfl)

theorem idx_col' (r : Fin 1048576) (k : Fin 32) : idx_main_call0_v8 (idx_main_call0_v10 (ix2 r k)) = ix1 r :=
  funext fun a => Fin.ext (by match a with | ⟨0, _⟩ => rfl)

theorem idx_v7 (r : Fin 1048576) (k : Fin 32) : idx_main_call0_v7 (ix1 r) k = ix2 r k :=
  funext fun a => Fin.ext (by match a with | ⟨0, _⟩ => rfl | ⟨1, _⟩ => rfl)

theorem idx_v2 (r : Fin 1048576) (k : Fin 32) : idx_main_v2 (ix1 r) k = ix2 r k :=
  funext fun a => Fin.ext (by match a with | ⟨0, _⟩ => rfl | ⟨1, _⟩ => rfl)

/-- The row's maximum. -/
theorem rowMax_eq (r : Fin 1048576) : val_main_call0_v2 (F := Ideal) x0 (ix1 r) = rowMax (row x0 r) := by
  rw [val_main_call0_v2_apply, val_main_call0_v1_apply, val_main_call0_cst_0_apply]
  show max (Ideal.ofBits .f32 0xFF800000#32) (val_main_call0_v0 (F := Ideal) x0 (ix1 r)) = _
  rw [ofBits_neg_inf, max_eq_right bot_le]
  unfold val_main_call0_v0
  refine (Host.reduce_eq_fold_single (FloatOps.maximumf (F := Ideal) (φ := .f32)) x0 _ reducesTo_S1048576x32_S1048576_d1 hred h_S_
    (ix1 r)).trans ?_
  show Finset.fold max (Ideal.ofBits .f32 0xFF800000#32) (x0 ∘ hred.lift (ix1 r)) Finset.univ = _
  rw [ofBits_neg_inf]
  exact congrArg (fun f => Finset.fold max ⊥ f Finset.univ) (funext fun k => congrArg x0 (lift_row r k))

/-- The entries less the row's maximum. -/
theorem shifted_eq (r : Fin 1048576) (k : Fin 32) :
    val_main_call0_v5 (F := Ideal) x0 (ix2 r k) = x0 (ix2 r k) - rowMax (row x0 r) := by
  rw [val_main_call0_v5_apply, val_main_call0_v4_apply, val_main_call0_v3_apply, idx_col, rowMax_eq]
  rfl

/-- The logarithm of the sum of the shifted entries' exponentials. -/
theorem logsum_eq (r : Fin 1048576) (k : Fin 32) :
    val_main_call0_v10 (F := Ideal) x0 (ix2 r k) = Ideal.log (∑ k' : Fin 32, Ideal.exp (x0 (ix2 r k') - rowMax (row x0 r))) := by
  rw [val_main_call0_v10_apply, val_main_call0_v9_apply, val_main_call0_v8_apply, idx_col', val_main_call0_v7_apply]
  show Ideal.log (Ideal.ofBits .f32 0x00000000#32 + ∑ k' : Fin 32, val_main_call0_v6 (F := Ideal) x0 (idx_main_call0_v7 (ix1 r) k')) = _
  rw [Ideal.ofBits_zero_f32, zero_add]
  refine congrArg Ideal.log (Finset.sum_congr rfl fun k' _ => ?_)
  rw [val_main_call0_v6_apply, idx_v7, shifted_eq]
  rfl

/-- The log-softmax. -/
theorem logp_eq (r : Fin 1048576) (k : Fin 32) : val_main_v0 (F := Ideal) x0 (ix2 r k) = logSoftmax (row x0 r) k := by
  rw [val_main_v0_apply, shifted_eq, logsum_eq]
  rfl

/-- The row's loss. -/
theorem rowLoss_eq (r : Fin 1048576) : val_main_v3 (F := Ideal) x0 x1 (ix1 r) = rowLoss (row x0 r) (row x1 r) := by
  rw [val_main_v3_apply, val_main_v2_apply]
  show -(Ideal.ofBits .f32 0x00000000#32 + ∑ k : Fin 32, val_main_v1 (F := Ideal) x0 x1 (idx_main_v2 (ix1 r) k)) = _
  rw [Ideal.ofBits_zero_f32, zero_add]
  unfold rowLoss
  refine congrArg Neg.neg (Finset.sum_congr rfl fun k _ => ?_)
  rw [idx_v2, val_main_v1_apply, logp_eq]
  rfl

/-- THE REFERENCE'S VALUE: its last stage is the batch's mean loss. -/
theorem result_eq : val_main_v5 (F := Ideal) x0 x1 = fun _ => meanLoss x0 x1 := by
  funext i
  rw [val_main_v5_apply]
  show Ideal.div (val_main_v4 (F := Ideal) x0 x1 i) (Ideal.ofBits .f32 0x49800000#32) = _
  unfold meanLoss
  refine congrArg (fun s => Ideal.div s (Ideal.ofBits .f32 0x49800000#32)) ?_
  rw [val_main_v4_apply]
  show Ideal.ofBits .f32 0x00000000#32 + ∑ j : S1048576.Idx, val_main_v3 (F := Ideal) x0 x1 j = _
  rw [Ideal.ofBits_zero_f32, zero_add]
  let e : Fin 1048576 ≃ S1048576.Idx := ⟨fun a => ix1 a, fun j => j 0, fun _ => rfl, fun j => (eq_ix1 j).symm⟩
  rw [← Fintype.sum_equiv e (fun a => val_main_v3 (F := Ideal) x0 x1 (ix1 a)) (val_main_v3 (F := Ideal) x0 x1) (fun _ => rfl)]
  exact Finset.sum_congr rfl fun r _ => rowLoss_eq x0 x1 r

/-- THE REFERENCE'S RUN: every execution ends with the result at the batch's mean loss and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v5_eq _ _).trans (result_eq _ _)), (h c).2⟩)
    (Cert.ReferenceIdeal.RunP.run (F := Ideal) m ρ)

end Cert.ReferenceIdeal.RefValue

end
-- ==== Proof.lean ====
/-
  Soft cross-entropy with a mean reduction, a two-core accumulating kernel against `jax.nn.log_softmax` and `jnp.mean`.

  Both programs compute, over the extended reals, the sum over the batch's 1048576 rows of the row loss
  `-(∑ k, t[r,k] * ((x[r,k] - M_r) - log (∑ k', exp (x[r,k'] - M_r))))`, `M_r` the row's maximum, divided by the row count
  (`Cert.RowLoss.meanLoss`).  The kernel groups the rows: each of two cores walks 64 blocks of 8192 rows, each block in
  4 slices of 2048 rows, adding slice sums into a loop-carried value, block sums into a scratch entry that the first
  block of a core zeroes, and copying the scratch entry to the core's output block after every block; the block is
  written back after the core's last block, and the lines after the call add the two cores' entries from zero and
  divide.  The reference sums all rows at once from zero.  The two agree because `+` on the extended reals is
  commutative and associative with neutral `0`, `0 - a = -a`, and `max ⊥ a = a`; no entry needs to be finite, so the
  precondition is never opened.

    frame_Kernel, frame_KernelIdeal      the generated frames of the kernel at the two instances;
    frame_ReferenceIdeal                 the reference's run with its result dropped;
    preserves_Kernel_KernelIdeal         the ideal pass rewrote nothing: `True`;
    algebraic_KernelIdeal_ReferenceIdeal both runs end at `meanLoss` of arguments that agree.
-/
import proofs.«109926_j65403761983716_2_alg».proof.Defs
import proofs.«109926_j65403761983716_2_alg».proof.Proof.Gen.Kernel
import proofs.«109926_j65403761983716_2_alg».proof.Proof.Gen.Kernel.Frame
import proofs.«109926_j65403761983716_2_alg».proof.Proof.Gen.KernelIdeal
import proofs.«109926_j65403761983716_2_alg».proof.Proof.Gen.KernelIdeal.Frame
import proofs.«109926_j65403761983716_2_alg».proof.Proof.Gen.ReferenceIdeal
import proofs.«109926_j65403761983716_2_alg».proof.Proof.Gen.Pre_finite_inputs
import proofs.«109926_j65403761983716_2_alg».proof.Proof.KernelValue
import proofs.«109926_j65403761983716_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end with the result at the batch's mean loss of their arguments, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
